-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096 : Shape := ⟨2, ![8, 4096]⟩
abbrev S11008x4096 : Shape := ⟨2, ![11008, 4096]⟩
abbrev S11008x32 : Shape := ⟨2, ![11008, 32]⟩
abbrev S_ : Shape := ⟨0, ![]⟩

class Facts : Prop where
  bcast_S_S8x4096 : S_.BroadcastsInDim S8x4096 (![] : Fin 0 → Fin S8x4096.rank)
  reducesTo_S8x4096_S_d0_1 : S8x4096.ReducesTo [0, 1] S_
  h_S_ : 0 < S_.numel
  bcast_S_S11008x32 : S_.BroadcastsInDim S11008x32 (![] : Fin 0 → Fin S11008x32.rank)
  reducesTo_S11008x32_S_d0_1 : S11008x32.ReducesTo [0, 1] S_

variable [Facts]

def fn {F : FTy → Type} [FloatOps F] (main_arg0 : FVec F S8x4096 .f32) (main_arg1 : IVec S11008x4096 32) (main_arg2 : IVec S11008x32 32) (main_arg3 : FVec F S11008x32 .f32) : IVec S_ 1 :=
  let main_v0 : FVec F S8x4096 .f32 := Host.absf main_arg0
  let main_cst : FVec F S_ .f32 := constant S_ .f32 0x7F800000#32
  let main_v1 : FVec F S8x4096 .f32 := broadcastInDim S8x4096 ![] bcast_S_S8x4096 main_cst
  let main_v2 : IVec S8x4096 1 := cmpf .olt main_v0 main_v1
  let main_c : IVec S_ 1 := constantI S_ 1 1#1
  let main_v3 : IVec S_ 1 := (fun x v => Host.reduce IntOp.andi x v reducesTo_S8x4096_S_d0_1 h_S_) main_v2 main_c
  let main_v4 : FVec F S11008x32 .f32 := Host.absf main_arg3
  let main_cst_0 : FVec F S_ .f32 := constant S_ .f32 0x7F800000#32
  let main_v5 : FVec F S11008x32 .f32 := broadcastInDim S11008x32 ![] bcast_S_S11008x32 main_cst_0
  let main_v6 : IVec S11008x32 1 := cmpf .olt main_v4 main_v5
  let main_c_1 : IVec S_ 1 := constantI S_ 1 1#1
  let main_v7 : IVec S_ 1 := (fun x v => Host.reduce IntOp.andi x v reducesTo_S11008x32_S_d0_1 h_S_) main_v6 main_c_1
  let main_v8 : IVec S_ 1 := andi main_v3 main_v7
  main_v8
-- ==== Kernel.lean ====
abbrev S8x4096 : Shape := ⟨2, ![8, 4096]⟩
abbrev S11008x4096 : Shape := ⟨2, ![11008, 4096]⟩
abbrev S11008x32 : Shape := ⟨2, ![11008, 32]⟩
abbrev S8x11008 : Shape := ⟨2, ![8, 11008]⟩
abbrev S256x4096 : Shape := ⟨2, ![256, 4096]⟩
abbrev S256x32 : Shape := ⟨2, ![256, 32]⟩
abbrev S8x256 : Shape := ⟨2, ![8, 256]⟩
abbrev S256x32x128 : Shape := ⟨3, ![256, 32, 128]⟩
abbrev S256x32x1 : Shape := ⟨3, ![256, 32, 1]⟩

abbrev nBuf : Space → Nat
  | .hbm => 5
  | .vmem => 9
  | .smem => 0
  | _ => 0

abbrev bufTy : (tb : Table) → Fin (tcTables nBuf tb) → BufTy
  | .hbm, ⟨0, _⟩ => ⟨S8x4096, .f32⟩
  | .hbm, ⟨1, _⟩ => ⟨S11008x4096, .i32⟩
  | .hbm, ⟨2, _⟩ => ⟨S11008x32, .i32⟩
  | .hbm, ⟨3, _⟩ => ⟨S11008x32, .f32⟩
  | .hbm, ⟨4, _⟩ => ⟨S8x11008, .f32⟩
  | .local _ .vmem, ⟨0, _⟩ => ⟨S8x4096, .f32⟩
  | .local _ .vmem, ⟨1, _⟩ => ⟨S256x4096, .i32⟩
  | .local _ .vmem, ⟨2, _⟩ => ⟨S256x4096, .i32⟩
  | .local _ .vmem, ⟨3, _⟩ => ⟨S256x32, .i32⟩
  | .local _ .vmem, ⟨4, _⟩ => ⟨S256x32, .i32⟩
  | .local _ .vmem, ⟨5, _⟩ => ⟨S256x32, .f32⟩
  | .local _ .vmem, ⟨6, _⟩ => ⟨S256x32, .f32⟩
  | .local _ .vmem, ⟨7, _⟩ => ⟨S8x256, .f32⟩
  | .local _ .vmem, ⟨8, _⟩ => ⟨S8x256, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S256x4096_S256x4096_0_0 : ∀ a, (![0, 0] : Fin 2 → Nat) a + S256x4096.size a ≤ S256x4096.size a
  h_S256x4096 : 0 < S256x4096.numel
  shapeCasts_S256x4096_S256x32x128 : S256x4096.ShapeCasts S256x32x128
  inb_S256x32_S256x32_0_0 : ∀ a, (![0, 0] : Fin 2 → Nat) a + S256x32.size a ≤ S256x32.size a
  h_S256x32 : 0 < S256x32.numel
  shapeCasts_S256x32_S256x32x1 : S256x32.ShapeCasts S256x32x1
  broadcasts_S256x32x1_S256x32x128 : S256x32x1.Broadcasts S256x32x128
  shapeCasts_S256x32x128_S256x4096 : S256x32x128.ShapeCasts S256x4096
  inb_S8x4096_S8x4096_0_0 : ∀ a, (![0, 0] : Fin 2 → Nat) a + S8x4096.size a ≤ S8x4096.size a
  h_S8x4096 : 0 < S8x4096.numel
  inb_S8x256_S8x256_0_0 : ∀ a, (![0, 0] : Fin 2 → Nat) a + S8x256.size a ≤ S8x256.size a
  h_S8x256 : 0 < S8x256.numel
  dot_S8x4096_S256x4096_S8x256_1_1_0_0_n_n_wf : DotDims.WF S8x4096 S256x4096 S8x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x4096.size a ≤ S8x4096.size a
  hwx0_0 : ∀ i : grid0.Coords, EltTy.bits .f32 = 32 ∨ (Rect.block (s := S8x4096) S8x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S11008x32.size a
  hwx0_2 : ∀ i : grid0.Coords, EltTy.bits .i32 = 32 ∨ (Rect.block (s := S11008x32) S256x32.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x32.size a ≤ S11008x32.size a
  hwx0_3 : ∀ i : grid0.Coords, EltTy.bits .f32 = 32 ∨ (Rect.block (s := S11008x32) S256x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256.size a ≤ S8x11008.size a
  hwx0_4 : ∀ i : grid0.Coords, EltTy.bits .f32 = 32 ∨ (Rect.block (s := S8x11008) S8x256.size (cc0_transform_4 i) (hinb0_4 i)).WholeWords (EltTy.packing .f32)

variable [Facts₀]

def dot_S8x4096_S256x4096_S8x256_1_1_0_0_n_n : DotDims S8x4096 S256x4096 S8x256 where
  lhsContracting := [1]
  rhsContracting := [1]
  lhsNonContracting := [0]
  rhsNonContracting := [0]
  lhsBatch := []
  rhsBatch := []
  wf := dot_S8x4096_S256x4096_S8x256_1_1_0_0_n_n_wf

abbrev win0_0 : Pipeline.Window sig grid0 :=
  Pipeline.Window.ofSpec (Memref.whole main_arg0) S8x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S8x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096 : Shape := ⟨2, ![8, 4096]⟩
abbrev S11008x4096 : Shape := ⟨2, ![11008, 4096]⟩
abbrev S11008x32 : Shape := ⟨2, ![11008, 32]⟩
abbrev S11008x32x128 : Shape := ⟨3, ![11008, 32, 128]⟩
abbrev S11008x32x1 : Shape := ⟨3, ![11008, 32, 1]⟩
abbrev S8x11008 : Shape := ⟨2, ![8, 11008]⟩

abbrev nBuf : Space → Nat
  | .hbm => 15
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S11008x4096, .i32⟩
  | .hbm, ⟨2, _⟩ => ⟨S11008x32, .i32⟩
  | .hbm, ⟨3, _⟩ => ⟨S11008x32, .f32⟩
  | .hbm, ⟨4, _⟩ => ⟨S11008x32x128, .i32⟩
  | .hbm, ⟨5, _⟩ => ⟨S11008x32x128, .f32⟩
  | .hbm, ⟨6, _⟩ => ⟨S11008x32x1, .i32⟩
  | .hbm, ⟨7, _⟩ => ⟨S11008x32x1, .f32⟩
  | .hbm, ⟨8, _⟩ => ⟨S11008x32x128, .f32⟩
  | .hbm, ⟨9, _⟩ => ⟨S11008x32x128, .f32⟩
  | .hbm, ⟨10, _⟩ => ⟨S11008x32x1, .f32⟩
  | .hbm, ⟨11, _⟩ => ⟨S11008x32x128, .f32⟩
  | .hbm, ⟨12, _⟩ => ⟨S11008x32x128, .f32⟩
  | .hbm, ⟨13, _⟩ => ⟨S11008x4096, .f32⟩
  | .hbm, ⟨14, _⟩ => ⟨S8x11008, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  shapeCasts_S11008x4096_S11008x32x128 : S11008x4096.ShapeCasts S11008x32x128
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  dot_S8x4096_S11008x4096_S8x11008_1_1_0_0_n_n_wf : DotDims.WF S8x4096 S11008x4096 S8x11008 [1] [1] [0] [0] [] []

variable [Facts₀]

def dot_S8x4096_S11008x4096_S8x11008_1_1_0_0_n_n : DotDims S8x4096 S11008x4096 S8x11008 where
  lhsContracting := [1]
  rhsContracting := [1]
  lhsNonContracting := [0]
  rhsNonContracting := [0]
  lhsBatch := []
  rhsBatch := []
  wf := dot_S8x4096_S11008x4096_S8x11008_1_1_0_0_n_n_wf

class Facts : Prop extends Facts₀ where

variable [Facts]
-- ==== Proof.Spec.lean ====
/-
  The mathematics both programs compute, stated once over literal shapes and extended reals.

  A row of the quantized weight matrix has 4096 columns in 32 groups of 128 consecutive columns; group `k / 128` of row `n`
  carries one integer zero point and one scale. The dequantized weight at row `n`, column `k` is
  `(q[n,k] − z[n, k/128]) · s[n, k/128]`, the integers read exactly as reals, and the output at `(p, n)` is the inner
  product over the 4096 columns of row `p` of `x` with row `n` of the dequantized weights. The number of weight rows
  is a parameter, so that the same definition reads a 256-row tile and the whole 11008-row matrix.
-/
import Idealize.ShloMosaic.PureOps.Ideal
import Idealize.ShloMosaic.Lib.ValueIdx

noncomputable section

open scoped BigOperators

namespace Cert.GroupDequant

open Idealize.ShloMosaic Idealize.ShloMosaic.ValueIdx

/-- The group of column `k`: 128 consecutive columns share a zero point and a scale. -/
def grp (k : Fin 4096) : Fin 32 := ⟨k.val / 128, by have := k.isLt; omega⟩

/-- The dequantized weight at row `n`, column `k`: the quantized integer minus its group's zero point, times its
    group's scale. -/
def weight {N : Nat} (q : IVec ⟨2, ![N, 4096]⟩ 32) (z : IVec ⟨2, ![N, 32]⟩ 32) (s : FVec Ideal ⟨2, ![N, 32]⟩ .f32)
    (n : Fin N) (k : Fin 4096) : EReal :=
  (FloatOps.sitofp (F := Ideal) .f32 (q (ix2 n k)) - FloatOps.sitofp (F := Ideal) .f32 (z (ix2 n (grp k)))) * s (ix2 n (grp k))

/-- The output at `(p, n)`: row `p` of `x` against row `n` of the dequantized weights, summed over the 4096 columns. -/
def out {N : Nat} (x : FVec Ideal ⟨2, ![8, 4096]⟩ .f32) (q : IVec ⟨2, ![N, 4096]⟩ 32) (z : IVec ⟨2, ![N, 32]⟩ 32)
    (s : FVec Ideal ⟨2, ![N, 32]⟩ .f32) (p : Fin 8) (n : Fin N) : EReal :=
  ∑ k : Fin 4096, x (ix2 p k) * weight q z s n k

/-- The whole result array as one function of the four argument arrays. -/
def result (x : FVec Ideal ⟨2, ![8, 4096]⟩ .f32) (q : IVec ⟨2, ![11008, 4096]⟩ 32) (z : IVec ⟨2, ![11008, 32]⟩ 32)
    (s : FVec Ideal ⟨2, ![11008, 32]⟩ .f32) : FVec Ideal ⟨2, ![8, 11008]⟩ .f32 :=
  fun j => out x q z s ⟨(j 0).val, idx2_lt0 j⟩ ⟨(j 1).val, idx2_lt1 j⟩

/-- Rows `256·b … 256·b + 255` of an array of 11008 rows, as an array of 256 rows (one tile of the weights, zero points
    or scales). -/
def tile {C : Nat} {α : Type} (b : Nat) (hb : b < 43) (a : (⟨2, ![11008, C]⟩ : Shape).Idx → α) : (⟨2, ![256, C]⟩ : Shape).Idx → α :=
  fun y => a (ix2 ⟨b * 256 + (y 0).val, by have := idx2_lt0 y; omega⟩ ⟨(y 1).val, idx2_lt1 y⟩)

/-- The output of a tile is the output of the whole matrix at the tile's rows: the sum reads only row `256·b + c`. -/
theorem out_tile (x : FVec Ideal ⟨2, ![8, 4096]⟩ .f32) (q : IVec ⟨2, ![11008, 4096]⟩ 32) (z : IVec ⟨2, ![11008, 32]⟩ 32)
    (s : FVec Ideal ⟨2, ![11008, 32]⟩ .f32) (b : Nat) (hb : b < 43) (p : Fin 8) (c : Fin 256) :
    out x (tile b hb q) (tile b hb z) (tile b hb s) p c = out x q z s p ⟨b * 256 + c.val, by have := c.isLt; omega⟩ := rfl

end Cert.GroupDequant

end
-- ==== Proof.Payload.lean ====
/-
  The kernel body's arithmetic at one output entry. The body regroups its 256 × 4096 tile of quantized integers as
  256 × 32 × 128 (column `k` is lane `k % 128` of group `k / 128`), reads each group's zero point and scale as a
  256 × 32 × 1 column broadcast along the 128 lanes, forms `(q − z) · s`, flattens back to 256 × 4096 and contracts
  the column axis against `x` into a zero accumulator. At an output entry `(p, c)` this is the specification's sum over
  the 4096 columns, for the tile's row `c`.
-/
import proofs.«151790_j25031069401195_2_alg».proof.Proof.Gen.KernelIdeal.Skeleton
import proofs.«151790_j25031069401195_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx
open Cert.GroupDequant

/-- Lane `k % 128` of a column. -/
def lane (k : Fin 4096) : Fin 128 := ⟨k.val % 128, Nat.mod_lt _ (by decide)⟩

/-- Flattening the grouped layout: entry `(c, k)` of the 256 × 4096 view is entry `(c, k / 128, k % 128)`. -/
theorem flatten_apply {α : Type} (v : S256x32x128.Idx → α) (h : S256x32x128.ShapeCasts S256x4096) (c : Fin 256) (k : Fin 4096) :
    shapeCast S256x4096 v h (ix2 c k) = v (ix3 c (grp k) (lane k)) := by
  refine shapeCast_apply v h (ix2 c k) (ix3 c (grp k) (lane k)) ?_
  rewrite [Shape.rowMajor_val_three, Shape.rowMajor_val_two]
  have hk : k.val < 4096 := k.isLt
  show (c.val * 32 + k.val / 128) * 128 + k.val % 128 = c.val * 4096 + k.val
  omega

/-- Grouping the flat layout: entry `(c, k / 128, k % 128)` of the 256 × 32 × 128 view is entry `(c, k)`. -/
theorem group_apply {α : Type} (v : S256x4096.Idx → α) (h : S256x4096.ShapeCasts S256x32x128) (c : Fin 256) (k : Fin 4096) :
    shapeCast S256x32x128 v h (ix3 c (grp k) (lane k)) = v (ix2 c k) := by
  refine shapeCast_apply v h (ix3 c (grp k) (lane k)) (ix2 c k) ?_
  rewrite [Shape.rowMajor_val_three, Shape.rowMajor_val_two]
  have hk : k.val < 4096 := k.isLt
  show c.val * 4096 + k.val = (c.val * 32 + k.val / 128) * 128 + k.val % 128
  omega

/-- A per-group value, viewed as a 256 × 32 × 1 column and broadcast along the 128 lanes, reads the group's value at
    every lane. -/
theorem column_apply {α : Type} (v : S256x32.Idx → α) (h : S256x32.ShapeCasts S256x32x1) (h' : S256x32x1.Broadcasts S256x32x128)
    (c : Fin 256) (g : Fin 32) (l : Fin 128) :
    broadcastTo S256x32x128 (shapeCast S256x32x1 v h) h' (ix3 c g l) = v (ix2 c g) := by
  refine (broadcastTo_apply _ h' (ix3 c g l) (ix3 c g (⟨0, Nat.one_pos⟩ : Fin 1)) (fun a => ?_)).trans ?_
  · match a with
    | ⟨0, _⟩ => show c.val = if (256 : Nat) = 1 then 0 else c.val; rw [if_neg (by decide)]
    | ⟨1, _⟩ => show g.val = if (32 : Nat) = 1 then 0 else g.val; rw [if_neg (by decide)]
    | ⟨2, _⟩ => show 0 = if (1 : Nat) = 1 then 0 else l.val; rw [if_pos rfl]
  · refine shapeCast_apply v h (ix3 c g (⟨0, Nat.one_pos⟩ : Fin 1)) (ix2 c g) ?_
    rewrite [Shape.rowMajor_val_three, Shape.rowMajor_val_two]
    show c.val * 32 + g.val = (c.val * 32 + g.val) * 1 + 0
    omega

/-- The contraction reads row `p` of the left operand: its first coordinate is the output's first, -/
theorem lhs_row (i : S8x256.Idx) (q : dot_S8x4096_S256x4096_S8x256_1_1_0_0_n_n.contr.Idx) :
    (dot_S8x4096_S256x4096_S8x256_1_1_0_0_n_n.lhsIdx i q 0).val = (i 0).val := by
  unfold DotDims.lhsIdx
  rw [dif_neg (show ¬(0 : Fin S8x4096.rank) ∈ dot_S8x4096_S256x4096_S8x256_1_1_0_0_n_n.lhsBatch by decide), dif_pos (show (0 : Fin S8x4096.rank) ∈ dot_S8x4096_S256x4096_S8x256_1_1_0_0_n_n.lhsNonContracting by decide)]
  rfl
/-- its second the contracted column; -/
theorem lhs_col (i : S8x256.Idx) (q : dot_S8x4096_S256x4096_S8x256_1_1_0_0_n_n.contr.Idx) :
    (dot_S8x4096_S256x4096_S8x256_1_1_0_0_n_n.lhsIdx i q 1).val = (q ⟨0, by decide⟩).val :=
  dot_S8x4096_S256x4096_S8x256_1_1_0_0_n_n.lhsIdx_val_of_single rfl i q
/-- and row `c` of the right operand: its first coordinate is the output's second, -/
theorem rhs_row (i : S8x256.Idx) (q : dot_S8x4096_S256x4096_S8x256_1_1_0_0_n_n.contr.Idx) :
    (dot_S8x4096_S256x4096_S8x256_1_1_0_0_n_n.rhsIdx i q 0).val = (i 1).val := by
  unfold DotDims.rhsIdx
  rw [dif_neg (show ¬(0 : Fin S256x4096.rank) ∈ dot_S8x4096_S256x4096_S8x256_1_1_0_0_n_n.rhsBatch by decide), dif_pos (show (0 : Fin S256x4096.rank) ∈ dot_S8x4096_S256x4096_S8x256_1_1_0_0_n_n.rhsNonContracting by decide)]
  rfl
/-- its second the contracted column. -/
theorem rhs_col (i : S8x256.Idx) (q : dot_S8x4096_S256x4096_S8x256_1_1_0_0_n_n.contr.Idx) :
    (dot_S8x4096_S256x4096_S8x256_1_1_0_0_n_n.rhsIdx i q 1).val = (q ⟨0, by decide⟩).val :=
  dot_S8x4096_S256x4096_S8x256_1_1_0_0_n_n.rhsIdx_val_of_single rfl i q

/-- The matrix product into a zero accumulator, at entry `(p, c)`: the sum over the 4096 columns of row `p` of the left
    operand times row `c` of the right one. -/
theorem matmul_entry (lhs : FVec Ideal S8x4096 .f32) (rhs : FVec Ideal S256x4096 .f32) (p : Fin 8) (c : Fin 256) :
    matmul dot_S8x4096_S256x4096_S8x256_1_1_0_0_n_n (some .fp32) lhs rhs (constant S8x256 .f32 0x00000000#32) (ix2 p c)
      = ∑ k : Fin 4096, lhs (ix2 p k) * rhs (ix2 c k) := by
  simp only [matmul]
  rw [Ideal.matmul_constant_zero_apply, ← Equiv.sum_comp (contrEquiv1 dot_S8x4096_S256x4096_S8x256_1_1_0_0_n_n 4096 rfl rfl).symm]
  refine Finset.sum_congr rfl fun k _ => ?_
  have hk := contrEquiv1_symm_val dot_S8x4096_S256x4096_S8x256_1_1_0_0_n_n 4096 rfl rfl k
  have el : dot_S8x4096_S256x4096_S8x256_1_1_0_0_n_n.lhsIdx (ix2 p c) ((contrEquiv1 dot_S8x4096_S256x4096_S8x256_1_1_0_0_n_n 4096 rfl rfl).symm k) = ix2 p k := funext fun a => Fin.ext (by
    match a with
    | ⟨0, _⟩ => exact lhs_row _ _
    | ⟨1, _⟩ => exact (lhs_col _ _).trans hk)
  have er : dot_S8x4096_S256x4096_S8x256_1_1_0_0_n_n.rhsIdx (ix2 p c) ((contrEquiv1 dot_S8x4096_S256x4096_S8x256_1_1_0_0_n_n 4096 rfl rfl).symm k) = ix2 c k := funext fun a => Fin.ext (by
    match a with
    | ⟨0, _⟩ => exact rhs_row _ _
    | ⟨1, _⟩ => exact (rhs_col _ _).trans hk)
  rw [el, er]

/-- THE BODY'S STORED VALUE at entry `(p, c)` of its 8 × 256 block is the specification's output for row `p` of `x` and
    row `c` of the tile. -/
theorem pay_apply (v0 : Vec Ideal S256x4096 .i32) (v3 : Vec Ideal S256x32 .i32) (v6 : Vec Ideal S256x32 .f32)
    (v13 : Vec Ideal S8x4096 .f32) (p : Fin 8) (c : Fin 256) :
    k0_pay1 (F := Ideal) v0 v3 v6 v13 (ix2 p c) = out v13 v0 v3 v6 p c := by
  unfold k0_pay1
  refine (matmul_entry _ _ p c).trans ?_
  unfold out
  refine Finset.sum_congr rfl fun k _ => ?_
  refine congrArg (v13 (ix2 p k) * ·) ?_
  refine (flatten_apply _ _ c k).trans ?_
  show (FloatOps.sitofp (F := Ideal) .f32 (shapeCast S256x32x128 v0 _ (ix3 c (grp k) (lane k))) - broadcastTo S256x32x128 (shapeCast S256x32x1 (sitofp (F := Ideal) .f32 v3) _) _ (ix3 c (grp k) (lane k)))
      * broadcastTo S256x32x128 (shapeCast S256x32x1 v6 _) _ (ix3 c (grp k) (lane k)) = _
  rw [group_apply, column_apply, column_apply]
  rfl

end Cert.KernelIdeal.Payload

end
-- ==== Proof.Blocks.lean ====
/-
  From the grid's 43 points to the whole result array. Point `t` stages all of `x`, rows `256·t … 256·t + 255` of the
  quantized weights, of the zero points and of the scales, and writes back columns `256·t … 256·t + 255` of the
  8 × 11008 result. What it writes is the specification read through that block: the body's value at `(p, c)` is the
  specification's output for row `p` of `x` and row `c` of the tile, which is row `256·t + c` of the whole matrix.
  The 43 column blocks cover the result array (column `n` lies in block `n / 256`), so the array ends holding the
  specification everywhere.
-/
import proofs.«151790_j25031069401195_2_alg».proof.Proof.Gen.KernelIdeal.Value
import proofs.«151790_j25031069401195_2_alg».proof.Proof.Payload

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.GroupDequant

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps, decided over the 43 grid points: `x` is always block (0, 0); the weights, zero points and
    scales move down their rows with the output's column block; the output's column block index is below 43. -/
theorem idx_facts : ∀ t : Fin cfg0.N, win0_0.index t (0 : Fin 2) = 0 ∧ win0_0.index t (1 : Fin 2) = 0
    ∧ win0_1.index t (0 : Fin 2) = win0_4.index t (1 : Fin 2) ∧ win0_1.index t (1 : Fin 2) = 0
    ∧ win0_2.index t (0 : Fin 2) = win0_4.index t (1 : Fin 2) ∧ win0_2.index t (1 : Fin 2) = 0
    ∧ win0_3.index t (0 : Fin 2) = win0_4.index t (1 : Fin 2) ∧ win0_3.index t (1 : Fin 2) = 0
    ∧ win0_4.index t (0 : Fin 2) = 0 ∧ win0_4.index t (1 : Fin 2) < 43 :=
  (by decide +kernel : ∀ t : Fin grid0.N, _)

/-- Every column block of the result is some point's. -/
theorem idx_onto : ∀ b : Fin 43, ∃ t : Fin cfg0.N, win0_4.index t = ![0, b.val] :=
  (by decide +kernel : ∀ b : Fin 43, ∃ t : Fin grid0.N, win0_4.index t = ![0, b.val])

/-- ONE POINT'S VALUE, over variables: if the staged blocks are all of `x` and tile `b` of the weights, zero points and
    scales, the body's stored value at `j` is the specification at the array index `i` that sits at `j` in column block
    `b`. -/
theorem point_value (x : FVec Ideal ⟨2, ![8, 4096]⟩ .f32) (q : IVec ⟨2, ![11008, 4096]⟩ 32) (z : IVec ⟨2, ![11008, 32]⟩ 32)
    (s : FVec Ideal ⟨2, ![11008, 32]⟩ .f32)
    (x0 : Vec Ideal S8x4096 .f32) (x1 : Vec Ideal S256x4096 .i32) (x2 : Vec Ideal S256x32 .i32) (x3 : Vec Ideal S256x32 .f32)
    (b : Nat) (hb : b < 43) (h0 : x0 = x) (h1 : x1 = tile b hb q) (h2 : x2 = tile b hb z) (h3 : x3 = tile b hb s)
    (j : S8x256.Idx) (i : S8x11008.Idx) (hi0 : (i 0).val = (j 0).val) (hi1 : (i 1).val = b * 256 + (j 1).val) :
    k0_pay1 (F := Ideal) x1 x2 x3 x0 j = result x q z s i := by
  subst h0 h1 h2 h3
  obtain ⟨p, c, rfl⟩ : ∃ (p : Fin 8) (c : Fin 256), j = ix2 p c := ⟨j 0, j 1, eq_ix2 j⟩
  rw [Payload.pay_apply, out_tile]
  unfold result
  have e0 : (⟨(i 0).val, idx2_lt0 i⟩ : Fin 8) = p := Fin.ext hi0
  have e1 : (⟨(i 1).val, idx2_lt1 i⟩ : Fin 11008) = ⟨b * 256 + c.val, by have := c.isLt; omega⟩ := Fin.ext hi1
  rw [e0, e1]

/-- The staged block of `x` at any point is all of `x`. -/
theorem iblk0_eq (c : Dev nD) (t : Fin cfg0.N) : (iblk m c 0 t : Vec Ideal S8x4096 .f32) = V m c main_arg0 := by
  obtain ⟨e00, e01, -⟩ := idx_facts t
  funext y
  show V m c main_arg0 (((cfg0.win 0).blk t).view.emb y) = V m c main_arg0 y
  refine congrArg (V m c main_arg0) (funext fun a => Fin.ext ?_)
  match a with
  | ⟨0, _⟩ => show win0_0.index t (0 : Fin 2) * 8 + 1 * (y 0).val = (y 0).val; rw [e00]; omega
  | ⟨1, _⟩ => show win0_0.index t (1 : Fin 2) * 4096 + 1 * (y 1).val = (y 1).val; rw [e01]; omega

/-- The staged block of the weights at point `t` is the tile of the output's column block. -/
theorem iblk1_eq (c : Dev nD) (t : Fin cfg0.N) (hb : win0_4.index t (1 : Fin 2) < 43) :
    (iblk m c 1 t : Vec Ideal S256x4096 .i32) = tile (win0_4.index t (1 : Fin 2)) hb (V m c main_arg1) := by
  obtain ⟨-, -, e10, e11, -⟩ := idx_facts t
  funext y
  show V m c main_arg1 (((cfg0.win 1).blk t).view.emb y) = V m c main_arg1 _
  refine congrArg (V m c main_arg1) (funext fun a => Fin.ext ?_)
  match a with
  | ⟨0, _⟩ => show win0_1.index t (0 : Fin 2) * 256 + 1 * (y 0).val = win0_4.index t (1 : Fin 2) * 256 + (y 0).val; rw [e10]; omega
  | ⟨1, _⟩ => show win0_1.index t (1 : Fin 2) * 4096 + 1 * (y 1).val = (y 1).val; rw [e11]; omega

/-- So is the staged block of the zero points, -/
theorem iblk2_eq (c : Dev nD) (t : Fin cfg0.N) (hb : win0_4.index t (1 : Fin 2) < 43) :
    (iblk m c 2 t : Vec Ideal S256x32 .i32) = tile (win0_4.index t (1 : Fin 2)) hb (V m c main_arg2) := by
  obtain ⟨-, -, -, -, e20, e21, -⟩ := idx_facts t
  funext y
  show V m c main_arg2 (((cfg0.win 2).blk t).view.emb y) = V m c main_arg2 _
  refine congrArg (V m c main_arg2) (funext fun a => Fin.ext ?_)
  match a with
  | ⟨0, _⟩ => show win0_2.index t (0 : Fin 2) * 256 + 1 * (y 0).val = win0_4.index t (1 : Fin 2) * 256 + (y 0).val; rw [e20]; omega
  | ⟨1, _⟩ => show win0_2.index t (1 : Fin 2) * 32 + 1 * (y 1).val = (y 1).val; rw [e21]; omega

/-- and of the scales. -/
theorem iblk3_eq (c : Dev nD) (t : Fin cfg0.N) (hb : win0_4.index t (1 : Fin 2) < 43) :
    (iblk m c 3 t : Vec Ideal S256x32 .f32) = tile (win0_4.index t (1 : Fin 2)) hb (V m c main_arg3) := by
  obtain ⟨-, -, -, -, -, -, e30, e31, -⟩ := idx_facts t
  funext y
  show V m c main_arg3 (((cfg0.win 3).blk t).view.emb y) = V m c main_arg3 _
  refine congrArg (V m c main_arg3) (funext fun a => Fin.ext ?_)
  match a with
  | ⟨0, _⟩ => show win0_3.index t (0 : Fin 2) * 256 + 1 * (y 0).val = win0_4.index t (1 : Fin 2) * 256 + (y 0).val; rw [e30]; omega
  | ⟨1, _⟩ => show win0_3.index t (1 : Fin 2) * 32 + 1 * (y 1).val = (y 1).val; rw [e31]; omega

/-- WHAT POINT `t` WRITES BACK is block `t` of the specification of the argument arrays. -/
theorem flushed_eq (c : Dev nD) (t : Fin cfg0.N) :
    (dats m 0 c).flushed 4 t = ((cfg0.win 4).blk t).view.read (Elt Ideal)
      (result (V m c main_arg0) (V m c main_arg1) (V m c main_arg2) (V m c main_arg3)) := by
  rw [flushed4]
  unfold out0_4
  rw [View.canon_unit_zero zero_offsets]
  simp only [View.ld_unit_zero (S := S256x4096) zero_offsets, View.ld_unit_zero (S := S256x32) zero_offsets,
    View.ld_unit_zero (S := S8x4096) zero_offsets]
  obtain ⟨-, -, -, -, -, -, -, -, e40, hb⟩ := idx_facts t
  funext j
  show k0_pay1 (F := Ideal) (iblk m c 1 t) (iblk m c 2 t) (iblk m c 3 t) (iblk m c 0 t) j
    = result (V m c main_arg0) (V m c main_arg1) (V m c main_arg2) (V m c main_arg3) (((cfg0.win 4).blk t).view.emb j)
  refine point_value (V m c main_arg0) (V m c main_arg1) (V m c main_arg2) (V m c main_arg3)
    (iblk m c 0 t) (iblk m c 1 t) (iblk m c 2 t) (iblk m c 3 t) (win0_4.index t (1 : Fin 2)) hb
    (iblk0_eq m c t) (iblk1_eq m c t hb) (iblk2_eq m c t hb) (iblk3_eq m c t hb) j (((cfg0.win 4).blk t).view.emb j) ?_ ?_
  · show win0_4.index t (0 : Fin 2) * 8 + 1 * (j 0).val = (j 0).val; rw [e40]; omega
  · show win0_4.index t (1 : Fin 2) * 256 + 1 * (j 1).val = win0_4.index t (1 : Fin 2) * 256 + (j 1).val; omega

/-- An index of the result array is in point `t`'s block iff each coordinate is in the block's range on its axis. -/
theorem mem_blk (t : Fin cfg0.N) (i : S8x11008.Idx) :
    i ∈ ((cfg0.win 4).blk t).view.set ↔ ∀ a : Fin 2, win0_4.index t a * S8x256.size a ≤ (i a).val ∧ (i a).val < win0_4.index t a * S8x256.size a + S8x256.size a := by
  show i ∈ ((View.whole main_v0).slice (win0_4.rect t)).set ↔ _
  rw [View.set_slice_whole, Rect.mem_set_unit]
  exact Iff.rfl

/-- The 43 column blocks cover the result array: column `n` lies in block `n / 256`. -/
theorem cover (i : S8x11008.Idx) : ∃ t : Fin cfg0.N, (cfg0.win 4).flush t = true ∧ i ∈ ((cfg0.win 4).blk t).view.set := by
  have hi0 : (i 0).val < 8 := idx2_lt0 i
  have hi1 : (i 1).val < 11008 := idx2_lt1 i
  obtain ⟨t, ht⟩ := idx_onto ⟨(i 1).val / 256, by omega⟩
  have q0 : win0_4.index t (0 : Fin 2) = 0 := congrFun ht 0
  have q1 : win0_4.index t (1 : Fin 2) = (i 1).val / 256 := congrFun ht 1
  refine ⟨t, flush0_4 t, ?_⟩
  rw [mem_blk]
  intro a
  match a with
  | ⟨0, _⟩ => show win0_4.index t (0 : Fin 2) * 8 ≤ (i 0).val ∧ (i 0).val < win0_4.index t (0 : Fin 2) * 8 + 8; omega
  | ⟨1, _⟩ => show win0_4.index t (1 : Fin 2) * 256 ≤ (i 1).val ∧ (i 1).val < win0_4.index t (1 : Fin 2) * 256 + 256; omega

/-- THE RESULT ARRAY after the run is the specification of the argument arrays as launched. -/
theorem final (c : Dev nD) : (dats m 0 c).arrAt 4 cfg0.N
    = result (m ((c : Thread nD τ).loc main_arg0)) (m ((c : Thread nD τ).loc main_arg1)) (m ((c : Thread nD τ).loc main_arg2))
        (m ((c : Thread nD τ).loc main_arg3)) :=
  (dats m 0 c).arrAt_eq_of_cover 4 _ (fun t _ => flushed_eq m c t) cover

/-- The run, read: the result array at the specification, the arguments unchanged. -/
theorem run : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg1)) (m ((c : Thread nD τ).loc main_arg2))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Blocks

end
-- ==== Proof.RefIsSpec.lean ====
/-
  The reference program's result, read index by index, is the specification: its `dot_general` contracts column `k`
  of `x` against column `k` of the dequantized matrix, and the reshapes to and from the grouped layout
  [11008, 32, 128] send column `k` to group `k / 128`, lane `k % 128` and back.
-/
import proofs.«151790_j25031069401195_2_alg».proof.Proof.Gen.ReferenceIdeal.Read
import proofs.«151790_j25031069401195_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.GroupDequant

/-- The row of `x` the contraction reads at output `(p, n)`, column `k`. -/
theorem lidx_eq (i : S8x11008.Idx) (k : Fin 4096) : lidx_main_v10 i k = ix2 (⟨(i 0).val, idx2_lt0 i⟩ : Fin 8) k :=
  funext fun a => Fin.ext (by match a with | ⟨0, _⟩ => rfl | ⟨1, _⟩ => rfl)

/-- Through the reshape to [11008, 32, 128] and back, the weight entry read at output `(p, n)`, column `k` is `(n, k)`. -/
theorem qidx_eq (i : S8x11008.Idx) (k : Fin 4096) :
    idx_main_v0 (idx_main_v9 (ridx_main_v10 i k)) = ix2 (⟨(i 1).val, idx2_lt1 i⟩ : Fin 11008) k := by
  have h1 : (i 1).val < 11008 := idx2_lt1 i
  have hk : k.val < 4096 := k.isLt
  funext a; apply Fin.ext
  match a with
  | ⟨0, _⟩ =>
    show ((((i 1).val * 4096 + k.val) / 4096 * 32 + ((i 1).val * 4096 + k.val) / 128 % 32) * 128 + ((i 1).val * 4096 + k.val) % 128) / 4096 = (i 1).val
    omega
  | ⟨1, _⟩ =>
    show ((((i 1).val * 4096 + k.val) / 4096 * 32 + ((i 1).val * 4096 + k.val) / 128 % 32) * 128 + ((i 1).val * 4096 + k.val) % 128) % 4096 = k.val
    omega

/-- The zero point read there is the one of row `n`, group `k / 128`. -/
theorem zidx_eq (i : S8x11008.Idx) (k : Fin 4096) :
    idx_main_v2 (idx_main_v4 (idx_main_v9 (ridx_main_v10 i k))) = ix2 (⟨(i 1).val, idx2_lt1 i⟩ : Fin 11008) (grp k) := by
  have h1 : (i 1).val < 11008 := idx2_lt1 i
  have hk : k.val < 4096 := k.isLt
  funext a; apply Fin.ext
  match a with
  | ⟨0, _⟩ =>
    show ((i 1).val * 4096 + k.val) / 4096 = (i 1).val
    omega
  | ⟨1, _⟩ =>
    show ((i 1).val * 4096 + k.val) / 128 % 32 = k.val / 128
    omega

/-- And so is the scale. -/
theorem sidx_eq (i : S8x11008.Idx) (k : Fin 4096) :
    idx_main_v6 (idx_main_v7 (idx_main_v9 (ridx_main_v10 i k))) = ix2 (⟨(i 1).val, idx2_lt1 i⟩ : Fin 11008) (grp k) := by
  have h1 : (i 1).val < 11008 := idx2_lt1 i
  have hk : k.val < 4096 := k.isLt
  funext a; apply Fin.ext
  match a with
  | ⟨0, _⟩ =>
    show ((i 1).val * 4096 + k.val) / 4096 = (i 1).val
    omega
  | ⟨1, _⟩ =>
    show ((i 1).val * 4096 + k.val) / 128 % 32 = k.val / 128
    omega

/-- The reference's last stage is the specification of the four argument arrays. -/
theorem ref_eq (x0 : (⟨S8x4096, .f32⟩ : BufTy).Contents (Elt Ideal)) (x1 : (⟨S11008x4096, .i32⟩ : BufTy).Contents (Elt Ideal))
    (x2 : (⟨S11008x32, .i32⟩ : BufTy).Contents (Elt Ideal)) (x3 : (⟨S11008x32, .f32⟩ : BufTy).Contents (Elt Ideal)) :
    val_main_v10 (F := Ideal) x0 x1 x2 x3 = result x0 x1 x2 x3 := by
  funext i
  rw [val_main_v10_apply]
  unfold result out
  refine Finset.sum_congr rfl fun k _ => ?_
  rw [lidx_eq, val_main_v9_apply, val_main_v8_apply, val_main_v5_apply, val_main_v1_apply, val_main_v0_apply, val_main_v4_apply,
    val_main_v3_apply, val_main_v2_apply, val_main_v7_apply, val_main_v6_apply, qidx_eq, zidx_eq, sidx_eq]
  rfl

end Cert.ReferenceIdeal.RefValue

end
-- ==== Proof.lean ====
/-
  Per-group 4-bit weight dequantization followed by a matrix product: `y[p, n] = Σ_k x[p, k] · (q[n, k] − z[n, k/128]) · s[n, k/128]`
  over x : f32[8, 4096], q : i32[11008, 4096], z : i32[11008, 32], s : f32[11008, 32].

  The kernel walks the 11008 weight rows in 43 tiles of 256 rows; at each tile it regroups the 4096 columns as 32 groups
  of 128 lanes, subtracts each group's zero point, multiplies by each group's scale, and contracts the columns against
  all of `x` into a zero accumulator, writing 256 columns of the result. The reference dequantizes the whole matrix in
  the same grouped layout and contracts the columns with one `dot_general`. Over the extended reals both are the same
  sum, entry by entry: the integer-to-float conversions are exact, the regroupings only rename column `k` as
  (group `k / 128`, lane `k % 128`), a product into a zero accumulator is the plain sum of products, and the tiles
  partition the weight rows. No algebraic law beyond `0 + a = a` is used, so the finiteness of the inputs is never needed.

  The three frames are the generated ones (the reference's is its generated run with the result dropped); the
  idealization rewrote nothing, so `preserves` is `True`.
-/
import proofs.«151790_j25031069401195_2_alg».proof.Defs
import proofs.«151790_j25031069401195_2_alg».proof.Proof.Gen.Kernel
import proofs.«151790_j25031069401195_2_alg».proof.Proof.Gen.Kernel.Skeleton
import proofs.«151790_j25031069401195_2_alg».proof.Proof.Gen.Kernel.Launch
import proofs.«151790_j25031069401195_2_alg».proof.Proof.Gen.Kernel.Points
import proofs.«151790_j25031069401195_2_alg».proof.Proof.Gen.Kernel.Frame
import proofs.«151790_j25031069401195_2_alg».proof.Proof.Gen.KernelIdeal
import proofs.«151790_j25031069401195_2_alg».proof.Proof.Gen.KernelIdeal.Skeleton
import proofs.«151790_j25031069401195_2_alg».proof.Proof.Gen.KernelIdeal.Launch
import proofs.«151790_j25031069401195_2_alg».proof.Proof.Gen.KernelIdeal.Points
import proofs.«151790_j25031069401195_2_alg».proof.Proof.Gen.KernelIdeal.Frame
import proofs.«151790_j25031069401195_2_alg».proof.Proof.Gen.ReferenceIdeal
import proofs.«151790_j25031069401195_2_alg».proof.Proof.Gen.Pre_finite_inputs
import proofs.«151790_j25031069401195_2_alg».proof.Proof.Gen.KernelIdeal.Value
import proofs.«151790_j25031069401195_2_alg».proof.Proof.Gen.ReferenceIdeal.Run
import proofs.«151790_j25031069401195_2_alg».proof.Proof.Gen.ReferenceIdeal.Read
import proofs.«151790_j25031069401195_2_alg».proof.Proof.Blocks
import proofs.«151790_j25031069401195_2_alg».proof.Proof.RefIsSpec
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the four arguments, the kernel's result array ends at the specification of its arguments
    (the tiles' column blocks cover the array), and the reference's at its last stage, which is the specification of
    the same arguments. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.ref_eq, (hagree c).1, (hagree c).2.1,
    (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
